-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel

variable [Facts]

def fn {F : FTy → Type} [FloatOps F] (main_arg0 : FVec F S131072x1024 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  main_v3
-- ==== Kernel.lean ====
abbrev S131072x1024 : Shape := ⟨2, ![131072, 1024]⟩
abbrev S131072x512 : Shape := ⟨2, ![131072, 512]⟩
abbrev S2048x1024 : Shape := ⟨2, ![2048, 1024]⟩
abbrev S2048x512 : Shape := ⟨2, ![2048, 512]⟩
abbrev S2048 : Shape := ⟨1, ![2048]⟩
abbrev S2048x1 : Shape := ⟨2, ![2048, 1]⟩

abbrev nBuf : Space → Nat
  | .hbm => 2
  | .vmem => 4
  | .smem => 0
  | _ => 0

abbrev bufTy : (tb : Table) → Fin (tcTables nBuf tb) → BufTy
  | .hbm, ⟨0, _⟩ => ⟨S131072x1024, .f32⟩
  | .hbm, ⟨1, _⟩ => ⟨S131072x512, .f32⟩
  | .local _ .vmem, ⟨0, _⟩ => ⟨S2048x1024, .f32⟩
  | .local _ .vmem, ⟨1, _⟩ => ⟨S2048x1024, .f32⟩
  | .local _ .vmem, ⟨2, _⟩ => ⟨S2048x512, .f32⟩
  | .local _ .vmem, ⟨3, _⟩ => ⟨S2048x512, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x1024_S2048x512_0_0 : ∀ a, (![0, 0] : Fin 2 → Nat) a + S2048x512.size a ≤ S2048x1024.size a
  h_S2048x512 : 0 < S2048x512.numel
  inb_S2048x1024_S2048x512_0_512 : ∀ a, (![0, 512] : Fin 2 → Nat) a + S2048x512.size a ≤ S2048x1024.size a
  reduces_S2048x512_S2048 : S2048x512.Reduces [1] S2048
  shapeCasts_S2048_S2048x1 : S2048.ShapeCasts S2048x1
  broadcasts_S2048x1_S2048x512 : S2048x1.Broadcasts S2048x512
  inb_S2048x512_S2048x512_0_0 : ∀ a, (![0, 0] : Fin 2 → Nat) a + S2048x512.size a ≤ S2048x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S131072x512 : Shape := ⟨2, ![131072, 512]⟩
abbrev S_ : Shape := ⟨0, ![]⟩
abbrev S131072 : Shape := ⟨1, ![131072]⟩
abbrev S131072x1 : Shape := ⟨2, ![131072, 1]⟩

abbrev nBuf : Space → Nat
  | .hbm => 11
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072x512, .f32⟩
  | .hbm, ⟨2, _⟩ => ⟨S_, .f32⟩
  | .hbm, ⟨3, _⟩ => ⟨S131072, .f32⟩
  | .hbm, ⟨4, _⟩ => ⟨S131072x1, .f32⟩
  | .hbm, ⟨5, _⟩ => ⟨S_, .f32⟩
  | .hbm, ⟨6, _⟩ => ⟨S131072x1, .f32⟩
  | .hbm, ⟨7, _⟩ => ⟨S131072x1, .f32⟩
  | .hbm, ⟨8, _⟩ => ⟨S131072x512, .f32⟩
  | .hbm, ⟨9, _⟩ => ⟨S131072x512, .f32⟩
  | .hbm, ⟨10, _⟩ => ⟨S131072x512, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  slices_S131072x1024_S131072x512_0_512 : S131072x1024.Slices ![0, 512] S131072x512
  reducesTo_S131072x512_S131072_d1 : S131072x512.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  slices_S131072x1024_S131072x512_0_0 : S131072x1024.Slices ![0, 0] S131072x512
  bcast_S131072x1_S131072x512_0_1 : S131072x1.BroadcastsInDim S131072x512 (![0, 1] : Fin 2 → Fin S131072x512.rank)

variable [Facts₀]

class Facts : Prop extends Facts₀ where

variable [Facts]
-- ==== Proof.RowMean.lean ====
/-
  The function both programs compute, and the one law that joins their two spellings of it.

  For an array `x` of 131072 rows and 1024 columns, entry (r, j) of the result, j < 512, is

      x(r, j) + (Σ_{k < 512} x(r, 512 + k)) · 2⁻⁹ :

  a row's left half, each entry shifted by the mean of the row's right half. One program multiplies the row sum by the
  float 2⁻⁹; the other divides it by the float 512. On the extended reals, division by a nonzero real IS multiplication by
  its reciprocal — at ±∞ as well — and 1/512 = 2⁻⁹ exactly, so the two agree at every extended real: no finiteness of the
  entries is used. (The sum itself is a sum in a commutative monoid, so its order does not matter either.)
-/
import Idealize.ShloMosaic.PureOps.Ideal
import Idealize.ShloMosaic.PureOps.Ideal.Laws
import Idealize.ShloMosaic.Lib.ValueIdx

noncomputable section

namespace Cert.RowMean

open Idealize.ShloMosaic Idealize.ShloMosaic.ValueIdx

/-- The float word `0x44000000` denotes 512 = 2⁹. -/
theorem ofBits_512 : Ideal.ofBits .f32 0x44000000#32 = ((512 : ℝ) : EReal) := by
  simp [Ideal.ofBits, Ideal.ieee, -EReal.coe_mul]; norm_num

/-- The float word `0x3B000000` denotes 2⁻⁹ = 1/512. -/
theorem ofBits_inv512 : Ideal.ofBits .f32 0x3B000000#32 = ((1 / 512 : ℝ) : EReal) := by
  simp [Ideal.ofBits, Ideal.ieee, -EReal.coe_mul]; norm_num

/-- Zero plus `s`, divided by 512, is `s` times 2⁻⁹ — for every extended real `s`, the infinities included. -/
theorem div_512 (s : EReal) :
    Ideal.div (Ideal.ofBits .f32 0x00000000#32 + s) (Ideal.ofBits .f32 0x44000000#32)
      = s * Ideal.ofBits .f32 0x3B000000#32 := by
  rw [Ideal.ofBits_zero_f32, zero_add, ofBits_512, ofBits_inv512, Ideal.div_coe (by norm_num : (512 : ℝ) ≠ 0)]

/-- Entry (r, j) of the array's left half. -/
abbrev left (r : Fin 131072) (j : Fin 512) : (⟨2, ![131072, 1024]⟩ : Shape).Idx :=
  ix2 r (⟨j.val, by have := j.isLt; omega⟩ : Fin 1024)

/-- Entry (r, 512 + k) of the array: the `k`-th entry of row `r`'s right half. -/
abbrev right (r : Fin 131072) (k : Fin 512) : (⟨2, ![131072, 1024]⟩ : Shape).Idx :=
  ix2 r (⟨512 + k.val, by have := k.isLt; omega⟩ : Fin 1024)

/-- The result as one function of the argument array: the left half, every entry of a row shifted by 2⁻⁹ times the sum of
    that row's right half. -/
def rowMean (x : (⟨2, ![131072, 1024]⟩ : Shape).Idx → EReal) : (⟨2, ![131072, 512]⟩ : Shape).Idx → EReal :=
  fun i => x (left (i 0) (i 1)) + (∑ k : Fin 512, x (right (i 0) k)) * Ideal.ofBits .f32 0x3B000000#32

theorem rowMean_apply (x : (⟨2, ![131072, 1024]⟩ : Shape).Idx → EReal) (r : Fin 131072) (j : Fin 512) :
    rowMean x (ix2 r j) = x (left r j) + (∑ k : Fin 512, x (right r k)) * Ideal.ofBits .f32 0x3B000000#32 := rfl

end Cert.RowMean

end
-- ==== Proof.RefRowMean.lean ====
/-
  The reference's result, read index by index, is `Cert.RowMean.rowMean` of its argument.

  The reference slices the right half, sums each row of it from zero, divides that column by 512, and adds it — broadcast
  along the row — to the sliced left half. Reading the ten operations at an output index (r, j) outermost first leaves
  `x(r, j) + (0 + Σ_k x(r, 512 + k)) / 512`, and `Cert.RowMean.div_512` turns the quotient into the product with 2⁻⁹.
-/
import proofs.«107040_j73650099192097_2_alg».proof.Proof.Gen.ReferenceIdeal.Read
import proofs.«107040_j73650099192097_2_alg».proof.Proof.RowMean

noncomputable section

namespace Cert.ReferenceIdeal.RowMeanValue

open Cert.ReferenceIdeal Cert.ReferenceIdeal.Gen Cert.ReferenceIdeal.Read
open Idealize.ShloMosaic Idealize.ShloMosaic.ValueIdx Cert.RowMean

/-- The left-half slice reads the argument at (r, j). -/
theorem left_idx (i : S131072x512.Idx) : idx_main_v5 i = left (i 0) (i 1) :=
  funext fun a => Fin.ext (by match a with | ⟨0, _⟩ => rfl | ⟨1, _⟩ => rfl)

/-- Through the two broadcasts, the row sum and the right-half slice, entry (r, j) reads the argument at (r, 512 + k). -/
theorem right_idx (i : S131072x512.Idx) (k : Fin 512) :
    idx_main_v0 (idx_main_v1 (idx_main_v2 (idx_main_v6 i)) k) = right (i 0) k :=
  funext fun a => Fin.ext (by match a with | ⟨0, _⟩ => rfl | ⟨1, _⟩ => rfl)

/-- The reference's last stage is `rowMean` of the argument array. -/
theorem result_eq (x0 : (⟨S131072x1024, .f32⟩ : BufTy).Contents (Elt Ideal)) :
    val_main_v7 (F := Ideal) x0 = rowMean x0 := by
  funext i
  rw [val_main_v7_apply, val_main_v5_apply, val_main_v6_apply, val_main_v4_apply, val_main_v2_apply, val_main_v3_apply,
    val_main_v1_apply, val_main_cst_0_apply, val_main_cst_apply]
  simp only [val_main_v0_apply, left_idx, right_idx, Ideal.addf_def, Ideal.hostDivf_def, Ideal.ofBits_def]
  rw [div_512]
  rfl

end Cert.ReferenceIdeal.RowMeanValue

end
-- ==== Proof.KernelRowMean.lean ====
/-
  The kernel's result array is `Cert.RowMean.rowMean` of its argument.

  The grid has 64 points. Point `t` stages rows 2048·t … 2048·t + 2047 of the argument (all 1024 columns) and writes back
  the same rows of the result (all 512 columns). From its input block the body leaves, at (p, q) of the output block,
  `block(p, q) + (Σ_k block(p, 512 + k)) · 2⁻⁹`: the left half of the block's row plus 2⁻⁹ times the lane sum of its right
  half. Since block row `p` at point `t` is array row 2048·t + p, that is `rowMean` at (2048·t + p, q): what point `t`
  writes back is `rowMean` restricted to its block. Row `r` lies in the block of point r / 2048, so the blocks cover the
  array, and the array ends holding `rowMean` of the argument.
-/
import proofs.«107040_j73650099192097_2_alg».proof.Proof.Gen.KernelIdeal.Value
import proofs.«107040_j73650099192097_2_alg».proof.Proof.RowMean
import Idealize.ShloMosaic.Lib.Pipeline.Value
import Idealize.ShloMosaic.PureOps.Ideal.Laws

noncomputable section

namespace Cert.KernelIdeal.RowMeanValue

open Cert.KernelIdeal Cert.KernelIdeal.Gen Cert.KernelIdeal.Value
open Idealize.ShloMosaic Idealize.ShloMosaic.TcCoe Idealize.SL.Sem Idealize.ShloMosaic.ValueIdx Cert.RowMean
open Idealize.ShloMosaic.Pipeline (Dat)

variable (m : (ℓ : Loc nD τ sig) → Buf (Elt Ideal) ℓ) (ρ : Dev nD → PrngReg)

/-! ## The body at one entry of the block -/

/-- The lane sum of a [2048, 512] block at row `p` is the sum of that row's 512 entries. -/
theorem laneSum (P1 : FVec Ideal S2048x512 .f32) (j : S2048.Idx) :
    multiReduction (F := Ideal) .add [1] S2048 P1 0x00000000#32 reduces_S2048x512_S2048 (.inl rfl) rfl j
      = ∑ k : Fin 512, P1 (ix2 (j 0) k) := by
  refine (Ideal.multiReduction_add_single P1 0x00000000#32 reduces_S2048x512_S2048 (.inl rfl) rfl j).trans ?_
  exact Finset.sum_congr rfl fun k _ =>
    congrArg P1 (funext fun a => Fin.ext (by match a with | ⟨0, _⟩ => rfl | ⟨1, _⟩ => rfl))

/-- What the body leaves at (p, q) of the output block, from the input block `x0`: the block's entry (p, q) plus 2⁻⁹ times
    the sum of the entries (p, 512), …, (p, 1023). -/
theorem out_apply (x0 : Vec Ideal S2048x1024 .f32) (p : Fin 2048) (q : Fin 512) :
    out0_1 x0 (ix2 p q)
      = x0 (ix2 p (⟨q.val, by have := q.isLt; omega⟩ : Fin 1024))
        + (∑ k : Fin 512, x0 (ix2 p (⟨512 + k.val, by have := k.isLt; omega⟩ : Fin 1024))) * Ideal.ofBits .f32 0x3B000000#32 := by
  unfold out0_1
  rw [canon1_eq]
  show (View.ld x0 r0_0) (ix1_0 (ix2 p q))
      + (multiReduction (F := Ideal) .add [1] S2048 (View.ld x0 r0_1) 0x00000000#32 reduces_S2048x512_S2048 (.inl rfl) rfl (ix1_1 (ix2 p q)))
        * Ideal.ofBits .f32 0x3B000000#32 = _
  rw [laneSum]
  have e0 : (View.ld x0 r0_0) (ix1_0 (ix2 p q)) = x0 (ix2 p (⟨q.val, by have := q.isLt; omega⟩ : Fin 1024)) := by
    show x0 (r0_0.idx (ix1_0 (ix2 p q))) = _
    refine congrArg x0 (funext fun a => Fin.ext ?_)
    match a with
    | ⟨0, _⟩ => show 0 + 1 * p.val = p.val; omega
    | ⟨1, _⟩ => show 0 + 1 * q.val = q.val; omega
  have e1 : ∀ k : Fin 512, (View.ld x0 r0_1) (ix2 ((ix1_1 (ix2 p q)) 0) k)
      = x0 (ix2 p (⟨512 + k.val, by have := k.isLt; omega⟩ : Fin 1024)) := by
    intro k
    show x0 (r0_1.idx (ix2 ((ix1_1 (ix2 p q)) 0) k)) = _
    refine congrArg x0 (funext fun a => Fin.ext ?_)
    match a with
    | ⟨0, _⟩ => show 0 + 1 * p.val = p.val; omega
    | ⟨1, _⟩ => show 512 + 1 * k.val = 512 + k.val; omega
  rw [e0]
  exact congrArg (fun s => _ + s * _) (Finset.sum_congr rfl fun k _ => e1 k)

/-- If `x0` is rows 2048·n … 2048·n + 2047 of the array `x`, the body's output block is `rowMean x` on those rows: entry
    `y` of the block is `rowMean x` at the array index `i` with row 2048·n + (row of `y`) and the same column. -/
theorem out_eq_rowMean (x : (⟨2, ![131072, 1024]⟩ : Shape).Idx → EReal) (x0 : Vec Ideal S2048x1024 .f32) (n : Nat)
    (hx0 : ∀ (p : Fin 2048) (u : Fin 1024) (r : Fin 131072), r.val = n * 2048 + p.val → x0 (ix2 p u) = x (ix2 r u))
    (y : (⟨2, ![2048, 512]⟩ : Shape).Idx) (i : (⟨2, ![131072, 512]⟩ : Shape).Idx)
    (h0 : (i 0).val = n * 2048 + (y 0).val) (h1 : (i 1).val = (y 1).val) :
    out0_1 x0 y = rowMean x i := by
  obtain ⟨p, q, rfl⟩ : ∃ (p : Fin 2048) (q : Fin 512), y = ix2 p q := ⟨y 0, y 1, eq_ix2 y⟩
  obtain ⟨r, q', rfl⟩ : ∃ (r : Fin 131072) (q' : Fin 512), i = ix2 r q' := ⟨i 0, i 1, eq_ix2 i⟩
  obtain rfl : q' = q := Fin.ext h1
  have hr : r.val = n * 2048 + p.val := h0
  rw [out_apply, rowMean_apply, hx0 p _ r hr]
  exact congrArg (fun s => _ + s * _) (Finset.sum_congr rfl fun k _ => hx0 p _ r hr)

/-! ## From blocks to the array -/

/-- The printed index maps over the 64 grid points: point `t` stages block row `t` of the argument and of the result, at
    block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` is rows 2048·t … of the argument array. -/
theorem iblk_apply (c : Dev nD) (t : Fin cfg0.N) (p : Fin 2048) (u : Fin 1024) (r : Fin 131072)
    (hr : r.val = t.val * 2048 + p.val) :
    (iblk m c 0 t : Vec Ideal S2048x1024 .f32) (ix2 p u)
      = (V m c main_arg0 : (⟨2, ![131072, 1024]⟩ : Shape).Idx → EReal) (ix2 r u) := by
  obtain ⟨e0, e1, -, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 2048 + 1 * p.val = r.val; rw [e0, hr]; omega
  | ⟨1, _⟩ => show win0_0.index t (1 : Fin 2) * 1024 + 1 * u.val = u.val; rw [e1]; omega

/-- What point `t` writes back is block `t` of `rowMean` of the argument array. -/
theorem flushed_eq (c : Dev nD) (t : Fin cfg0.N) :
    (dats m 0 c).flushed 1 t = ((cfg0.win 1).blk t).view.read (Elt Ideal) (rowMean (V m c main_arg0)) := by
  obtain ⟨-, -, e2, e3⟩ := idx_facts t
  have hN : cfg0.N = 64 := N_0
  have ht : t.val < 64 := hN ▸ t.isLt
  rw [flushed1]
  funext y
  show out0_1 (iblk m c 0 t) y = rowMean (V m c main_arg0) (((cfg0.win 1).blk t).view.emb y)
  refine out_eq_rowMean (V m c main_arg0) (iblk m c 0 t) t.val (fun p u r hr => iblk_apply m c t p u r hr) y
    (((cfg0.win 1).blk t).view.emb y) ?_ ?_
  · show win0_1.index t (0 : Fin 2) * 2048 + 1 * (y 0).val = t.val * 2048 + (y 0).val
    rw [e2]; omega
  · show win0_1.index t (1 : Fin 2) * 512 + 1 * (y 1).val = (y 1).val
    rw [e3]; omega

/-- An index of the result array is in point `t`'s block iff each coordinate is in the block's range on its axis. -/
theorem mem_blk (t : Fin cfg0.N) (i : S131072x512.Idx) :
    i ∈ ((cfg0.win 1).blk t).view.set ↔ ∀ a : Fin 2, win0_1.index t a * S2048x512.size a ≤ (i a).val
      ∧ (i a).val < win0_1.index t a * S2048x512.size a + S2048x512.size a := by
  show i ∈ ((View.whole main_v0).slice (win0_1.rect t)).set ↔ _
  rw [View.set_slice_whole, Rect.mem_set_unit]
  exact Iff.rfl

/-- Row `r` of the result lies in the block of point r / 2048: the 64 blocks cover the array. -/
theorem cover (i : S131072x512.Idx) :
    ∃ t : Fin cfg0.N, (cfg0.win 1).flush t = true ∧ i ∈ ((cfg0.win 1).blk t).view.set := by
  have hN : cfg0.N = 64 := N_0
  have hi0 : (i 0).val < 131072 := (i 0).isLt
  have hi1 : (i 1).val < 512 := (i 1).isLt
  have hlt : (i 0).val / 2048 < cfg0.N := by rw [hN]; omega
  obtain ⟨-, -, e2, e3⟩ := idx_facts ⟨(i 0).val / 2048, hlt⟩
  refine ⟨⟨(i 0).val / 2048, hlt⟩, flush0_1 _, ?_⟩
  rw [mem_blk]
  intro a
  match a with
  | ⟨0, _⟩ =>
    show win0_1.index ⟨(i 0).val / 2048, hlt⟩ (0 : Fin 2) * 2048 ≤ (i 0).val
      ∧ (i 0).val < win0_1.index ⟨(i 0).val / 2048, hlt⟩ (0 : Fin 2) * 2048 + 2048
    rw [e2]; show (i 0).val / 2048 * 2048 ≤ (i 0).val ∧ (i 0).val < (i 0).val / 2048 * 2048 + 2048; omega
  | ⟨1, _⟩ =>
    show win0_1.index ⟨(i 0).val / 2048, hlt⟩ (1 : Fin 2) * 512 ≤ (i 1).val
      ∧ (i 1).val < win0_1.index ⟨(i 0).val / 2048, hlt⟩ (1 : Fin 2) * 512 + 512
    rw [e3]; omega

/-- The result array after the run is `rowMean` of the argument array. -/
theorem final (c : Dev nD) : (dats m 0 c).arrAt 1 cfg0.N = rowMean (m ((c : Thread nD τ).loc main_arg0)) :=
  (dats m 0 c).arrAt_eq_of_cover 1 (rowMean (V m c main_arg0)) (fun t _ => flushed_eq m c t) cover

/-- Every weakly fair execution of the kernel ends with the result array at `rowMean` of the argument, the argument unchanged. -/
theorem run : θ_run defs (onTc (τ := τ) (main (F := Ideal))) ⟨m, fun _ => 0, ρ⟩ fun r => ∀ c : Dev nD,
      r.2.mem ((c : Thread nD τ).loc main_v0) = rowMean (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.RowMeanValue

end
-- ==== Proof.lean ====
/-
  `Cert.Claim` for the row-mean kernel: a [131072, 1024] array goes to the [131072, 512] array whose entry (r, j) is
  `x(r, j) + (Σ_{k < 512} x(r, 512 + k)) · 2⁻⁹` (Proof/RowMean.lean, `rowMean`).

  * The kernel, read at the extended reals, ends with its result array at `rowMean` of the argument: each of the 64 grid
    points writes back `rowMean` restricted to its 2048 rows, and those blocks cover the array (Proof/KernelRowMean.lean).
  * The reference, read one operation at a time, computes `x(r, j) + (0 + Σ_k x(r, 512 + k)) / 512`; dividing by 512 is
    multiplying by 2⁻⁹ on every extended real, so it is `rowMean` too (Proof/RefRowMean.lean).
  * Both programs terminate without a fault and leave the argument unchanged (the three frames); the kernel's idealization
    rewrote no operation, so there is nothing to preserve beyond the text itself.
  The finiteness precondition is never opened: the one law used holds at ±∞ as well.
-/
import proofs.«107040_j73650099192097_2_alg».proof.Defs
import proofs.«107040_j73650099192097_2_alg».proof.Proof.Gen.Kernel
import proofs.«107040_j73650099192097_2_alg».proof.Proof.Gen.Kernel.Skeleton
import proofs.«107040_j73650099192097_2_alg».proof.Proof.Gen.Kernel.Launch
import proofs.«107040_j73650099192097_2_alg».proof.Proof.Gen.Kernel.Points
import proofs.«107040_j73650099192097_2_alg».proof.Proof.Gen.Kernel.Frame
import proofs.«107040_j73650099192097_2_alg».proof.Proof.Gen.KernelIdeal
import proofs.«107040_j73650099192097_2_alg».proof.Proof.Gen.KernelIdeal.Skeleton
import proofs.«107040_j73650099192097_2_alg».proof.Proof.Gen.KernelIdeal.Launch
import proofs.«107040_j73650099192097_2_alg».proof.Proof.Gen.KernelIdeal.Points
import proofs.«107040_j73650099192097_2_alg».proof.Proof.Gen.KernelIdeal.Frame
import proofs.«107040_j73650099192097_2_alg».proof.Proof.Gen.ReferenceIdeal
import proofs.«107040_j73650099192097_2_alg».proof.Proof.Gen.Pre_finite_inputs
import proofs.«107040_j73650099192097_2_alg».proof.Proof.Gen.KernelIdeal.Value
import proofs.«107040_j73650099192097_2_alg».proof.Proof.Gen.ReferenceIdeal.Run
import proofs.«107040_j73650099192097_2_alg».proof.Proof.Gen.ReferenceIdeal.Read
import proofs.«107040_j73650099192097_2_alg».proof.Proof.RowMean
import proofs.«107040_j73650099192097_2_alg».proof.Proof.RefRowMean
import proofs.«107040_j73650099192097_2_alg».proof.Proof.KernelRowMean
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its argument unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, both programs end with the result at `rowMean` of the argument. -/
theorem algebraic : Cert.algebraic_KernelIdeal_ReferenceIdeal := by
  intro m ρ m' ρ' _ hagree
  refine ⟨fun c => Cert.RowMean.rowMean (m ((c.tc : Thread Cert.KernelIdeal.nD Cert.KernelIdeal.τ).loc Cert.KernelIdeal.main_arg0)),
    Cert.KernelIdeal.RowMeanValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RowMeanValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
